-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x640x100 : Shape := ⟨3, ![128, 640, 100]⟩
abbrev S1x1 : Shape := ⟨2, ![1, 1]⟩
abbrev S_ : Shape := ⟨0, ![]⟩

class Facts : Prop where
  bcast_S_S128x640x100 : S_.BroadcastsInDim S128x640x100 (![] : Fin 0 → Fin S128x640x100.rank)
  reducesTo_S128x640x100_S_d0_1_2 : S128x640x100.ReducesTo [0, 1, 2] S_
  h_S_ : 0 < S_.numel
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S128x640x100 .f32) (main_arg1 : FVec F S1x1 .f32) : IVec S_ 1 :=
  let main_v0 : FVec F S128x640x100 .f32 := Host.absf main_arg0
  let main_cst : FVec F S_ .f32 := constant S_ .f32 0x7F800000#32
  let main_v1 : FVec F S128x640x100 .f32 := broadcastInDim S128x640x100 ![] bcast_S_S128x640x100 main_cst
  let main_v2 : IVec S128x640x100 1 := cmpf .olt main_v0 main_v1
  let main_c : IVec S_ 1 := constantI S_ 1 1#1
  let main_v3 : IVec S_ 1 := (fun x v => Host.reduce IntOp.andi x v reducesTo_S128x640x100_S_d0_1_2 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  main_v8
-- ==== Kernel.lean ====
abbrev S128x640x100 : Shape := ⟨3, ![128, 640, 100]⟩
abbrev S1x1 : Shape := ⟨2, ![1, 1]⟩
abbrev S128x640x640 : Shape := ⟨3, ![128, 640, 640]⟩
abbrev S4x640x100 : Shape := ⟨3, ![4, 640, 100]⟩
abbrev S4x640x640 : Shape := ⟨3, ![4, 640, 640]⟩
abbrev S1x640x100 : Shape := ⟨3, ![1, 640, 100]⟩
abbrev S640x100 : Shape := ⟨2, ![640, 100]⟩
abbrev S100x640 : Shape := ⟨2, ![100, 640]⟩
abbrev S640x640 : Shape := ⟨2, ![640, 640]⟩
abbrev S640 : Shape := ⟨1, ![640]⟩
abbrev S640x1 : Shape := ⟨2, ![640, 1]⟩
abbrev S1x640 : Shape := ⟨2, ![1, 640]⟩
abbrev S1 : Shape := ⟨1, ![1]⟩
abbrev S1x640x640 : Shape := ⟨3, ![1, 640, 640]⟩
abbrev S128x409600 : Shape := ⟨2, ![128, 409600]⟩

abbrev nBuf : Space → Nat
  | .hbm => 4
  | .vmem => 5
  | .smem => 0
  | _ => 0

abbrev bufTy : (tb : Table) → Fin (tcTables nBuf tb) → BufTy
  | .hbm, ⟨0, _⟩ => ⟨S128x640x100, .f32⟩
  | .hbm, ⟨1, _⟩ => ⟨S1x1, .f32⟩
  | .hbm, ⟨2, _⟩ => ⟨S128x640x640, .f32⟩
  | .hbm, ⟨3, _⟩ => ⟨S128x409600, .f32⟩
  | .local _ .vmem, ⟨0, _⟩ => ⟨S4x640x100, .f32⟩
  | .local _ .vmem, ⟨1, _⟩ => ⟨S4x640x100, .f32⟩
  | .local _ .vmem, ⟨2, _⟩ => ⟨S1x1, .f32⟩
  | .local _ .vmem, ⟨3, _⟩ => ⟨S4x640x640, .f32⟩
  | .local _ .vmem, ⟨4, _⟩ => ⟨S4x640x640, .f32⟩
  | _, _ => ⟨S128x640x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x640x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S4x640x100_S1x640x100_0_0_0 : ∀ a, (![0, 0, 0] : Fin 3 → Nat) a + S1x640x100.size a ≤ S4x640x100.size a
  h_S1x640x100 : 0 < S1x640x100.numel
  shapeCasts_S1x640x100_S640x100 : S1x640x100.ShapeCasts S640x100
  bitsLt_bf16_f32 : FTy.bits .bf16 < FTy.bits .f32
  transposes_S640x100_p1_0_S100x640 : S640x100.Transposes [1, 0] S100x640
  reduces_S640x100_S640 : S640x100.Reduces [1] S640
  shapeCasts_S640_S640x1 : S640.ShapeCasts S640x1
  transposes_S640x1_p1_0_S1x640 : S640x1.Transposes [1, 0] S1x640
  broadcasts_S640x1_S640x640 : S640x1.Broadcasts S640x640
  broadcasts_S1x640_S640x640 : S1x640.Broadcasts S640x640
  reduces_S640x640_S640 : S640x640.Reduces [1] S640
  reduces_S640x640_S640_2 : S640x640.Reduces [0] S640
  shapeCasts_S640_S1x640 : S640.ShapeCasts S1x640
  reduces_S640x1_S1 : S640x1.Reduces [0] S1
  shapeCasts_S1_S1x1 : S1.ShapeCasts S1x1
  broadcasts_S1x1_S640x640 : S1x1.Broadcasts S640x640
  inb_S4x640x640_S1x640x640_0_0_0 : ∀ a, (![0, 0, 0] : Fin 3 → Nat) a + S1x640x640.size a ≤ S4x640x640.size a
  h_S1x640x640 : 0 < S1x640x640.numel
  shapeCasts_S1x640x640_S640x640 : S1x640x640.ShapeCasts S640x640
  shapeCasts_S640x640_S1x640x640 : S640x640.ShapeCasts S1x640x640
  inb_S4x640x100_S1x640x100_1_0_0 : ∀ a, (![1, 0, 0] : Fin 3 → Nat) a + S1x640x100.size a ≤ S4x640x100.size a
  inb_S4x640x640_S1x640x640_1_0_0 : ∀ a, (![1, 0, 0] : Fin 3 → Nat) a + S1x640x640.size a ≤ S4x640x640.size a
  inb_S4x640x100_S1x640x100_2_0_0 : ∀ a, (![2, 0, 0] : Fin 3 → Nat) a + S1x640x100.size a ≤ S4x640x100.size a
  inb_S4x640x640_S1x640x640_2_0_0 : ∀ a, (![2, 0, 0] : Fin 3 → Nat) a + S1x640x640.size a ≤ S4x640x640.size a
  inb_S4x640x100_S1x640x100_3_0_0 : ∀ a, (![3, 0, 0] : Fin 3 → Nat) a + S1x640x100.size a ≤ S4x640x100.size a
  inb_S4x640x640_S1x640x640_3_0_0 : ∀ a, (![3, 0, 0] : Fin 3 → Nat) a + S1x640x640.size a ≤ S4x640x640.size a
  shapeCasts_S128x640x640_S128x409600 : S128x640x640.ShapeCasts S128x409600
  dot_S640x100_S100x640_S640x640_1_0_0_1_n_n_wf : DotDims.WF S640x100 S100x640 S640x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x640x100.size a ≤ S128x640x100.size a
  hwx0_0 : ∀ i : grid0.Coords, EltTy.bits .f32 = 32 ∨ (Rect.block (s := S128x640x100) S4x640x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x640x640.size a ≤ S128x640x640.size a
  hwx0_2 : ∀ i : grid0.Coords, EltTy.bits .f32 = 32 ∨ (Rect.block (s := S128x640x640) S4x640x640.size (cc0_transform_2 i) (hinb0_2 i)).WholeWords (EltTy.packing .f32)

variable [Facts₀]

def dot_S640x100_S100x640_S640x640_1_0_0_1_n_n : DotDims S640x100 S100x640 S640x640 where
  lhsContracting := [1]
  rhsContracting := [0]
  lhsNonContracting := [0]
  rhsNonContracting := [1]
  lhsBatch := []
  rhsBatch := []
  wf := dot_S640x100_S100x640_S640x640_1_0_0_1_n_n_wf

abbrev win0_0 : Pipeline.Window sig grid0 :=
  Pipeline.Window.ofSpec (Memref.whole main_arg0) S4x640x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x640x640.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x640x100 : Shape := ⟨3, ![128, 640, 100]⟩
abbrev S1x1 : Shape := ⟨2, ![1, 1]⟩
abbrev S128x640x640 : Shape := ⟨3, ![128, 640, 640]⟩
abbrev S640 : Shape := ⟨1, ![640]⟩
abbrev S_ : Shape := ⟨0, ![]⟩
abbrev S640x1 : Shape := ⟨2, ![640, 1]⟩
abbrev S640x2 : Shape := ⟨2, ![640, 2]⟩
abbrev S128x640 : Shape := ⟨2, ![128, 640]⟩
abbrev S128x1x640 : Shape := ⟨3, ![128, 1, 640]⟩
abbrev S128x640x1 : Shape := ⟨3, ![128, 640, 1]⟩
abbrev S1x1x1 : Shape := ⟨3, ![1, 1, 1]⟩
abbrev S128 : Shape := ⟨1, ![128]⟩
abbrev S128x1x1 : Shape := ⟨3, ![128, 1, 1]⟩
abbrev S128x409600 : Shape := ⟨2, ![128, 409600]⟩

abbrev nBuf : Space → Nat
  | .hbm => 68
  | .vmem => 0
  | .smem => 0
  | _ => 0

abbrev bufTy : (tb : Table) → Fin (tcTables nBuf tb) → BufTy
  | .hbm, ⟨0, _⟩ => ⟨S128x640x100, .f32⟩
  | .hbm, ⟨1, _⟩ => ⟨S1x1, .f32⟩
  | .hbm, ⟨2, _⟩ => ⟨S128x640x640, .f32⟩
  | .hbm, ⟨3, _⟩ => ⟨S640, .i32⟩
  | .hbm, ⟨4, _⟩ => ⟨S640, .i32⟩
  | .hbm, ⟨5, _⟩ => ⟨S_, .i32⟩
  | .hbm, ⟨6, _⟩ => ⟨S640, .i32⟩
  | .hbm, ⟨7, _⟩ => ⟨S640, .i1⟩
  | .hbm, ⟨8, _⟩ => ⟨S_, .i32⟩
  | .hbm, ⟨9, _⟩ => ⟨S640, .i32⟩
  | .hbm, ⟨10, _⟩ => ⟨S640, .i32⟩
  | .hbm, ⟨11, _⟩ => ⟨S640, .i32⟩
  | .hbm, ⟨12, _⟩ => ⟨S_, .i32⟩
  | .hbm, ⟨13, _⟩ => ⟨S640, .i32⟩
  | .hbm, ⟨14, _⟩ => ⟨S640, .i1⟩
  | .hbm, ⟨15, _⟩ => ⟨S_, .i32⟩
  | .hbm, ⟨16, _⟩ => ⟨S640, .i32⟩
  | .hbm, ⟨17, _⟩ => ⟨S640, .i32⟩
  | .hbm, ⟨18, _⟩ => ⟨S640, .i32⟩
  | .hbm, ⟨19, _⟩ => ⟨S640x1, .i32⟩
  | .hbm, ⟨20, _⟩ => ⟨S640x1, .i32⟩
  | .hbm, ⟨21, _⟩ => ⟨S640x2, .i32⟩
  | .hbm, ⟨22, _⟩ => ⟨S128x640, .f32⟩
  | .hbm, ⟨23, _⟩ => ⟨S128x1x640, .f32⟩
  | .hbm, ⟨24, _⟩ => ⟨S128x640x1, .f32⟩
  | .hbm, ⟨25, _⟩ => ⟨S128x640x640, .f32⟩
  | .hbm, ⟨26, _⟩ => ⟨S128x640x640, .f32⟩
  | .hbm, ⟨27, _⟩ => ⟨S128x640x640, .f32⟩
  | .hbm, ⟨28, _⟩ => ⟨S_, .f32⟩
  | .hbm, ⟨29, _⟩ => ⟨S128x640x640, .f32⟩
  | .hbm, ⟨30, _⟩ => ⟨S128x640x640, .f32⟩
  | .hbm, ⟨31, _⟩ => ⟨S128x640x640, .f32⟩
  | .hbm, ⟨32, _⟩ => ⟨S_, .f32⟩
  | .hbm, ⟨33, _⟩ => ⟨S128x640x640, .f32⟩
  | .hbm, ⟨34, _⟩ => ⟨S128x640x640, .f32⟩
  | .hbm, ⟨35, _⟩ => ⟨S1x1, .f32⟩
  | .hbm, ⟨36, _⟩ => ⟨S1x1x1, .f32⟩
  | .hbm, ⟨37, _⟩ => ⟨S128x640x640, .f32⟩
  | .hbm, ⟨38, _⟩ => ⟨S128x640x640, .f32⟩
  | .hbm, ⟨39, _⟩ => ⟨S_, .f32⟩
  | .hbm, ⟨40, _⟩ => ⟨S128x640x640, .f32⟩
  | .hbm, ⟨41, _⟩ => ⟨S128x640x640, .f32⟩
  | .hbm, ⟨42, _⟩ => ⟨S128x640x640, .f32⟩
  | .hbm, ⟨43, _⟩ => ⟨S_, .f32⟩
  | .hbm, ⟨44, _⟩ => ⟨S128x640, .f32⟩
  | .hbm, ⟨45, _⟩ => ⟨S128x640x1, .f32⟩
  | .hbm, ⟨46, _⟩ => ⟨S_, .f32⟩
  | .hbm, ⟨47, _⟩ => ⟨S128x640x1, .f32⟩
  | .hbm, ⟨48, _⟩ => ⟨S128x640x1, .f32⟩
  | .hbm, ⟨49, _⟩ => ⟨S_, .f32⟩
  | .hbm, ⟨50, _⟩ => ⟨S128x640, .f32⟩
  | .hbm, ⟨51, _⟩ => ⟨S128x1x640, .f32⟩
  | .hbm, ⟨52, _⟩ => ⟨S_, .f32⟩
  | .hbm, ⟨53, _⟩ => ⟨S128x1x640, .f32⟩
  | .hbm, ⟨54, _⟩ => ⟨S128x1x640, .f32⟩
  | .hbm, ⟨55, _⟩ => ⟨S_, .f32⟩
  | .hbm, ⟨56, _⟩ => ⟨S128, .f32⟩
  | .hbm, ⟨57, _⟩ => ⟨S128x1x1, .f32⟩
  | .hbm, ⟨58, _⟩ => ⟨S_, .f32⟩
  | .hbm, ⟨59, _⟩ => ⟨S128x1x1, .f32⟩
  | .hbm, ⟨60, _⟩ => ⟨S128x1x1, .f32⟩
  | .hbm, ⟨61, _⟩ => ⟨S128x640x640, .f32⟩
  | .hbm, ⟨62, _⟩ => ⟨S128x640x640, .f32⟩
  | .hbm, ⟨63, _⟩ => ⟨S128x640x640, .f32⟩
  | .hbm, ⟨64, _⟩ => ⟨S128x640x640, .f32⟩
  | .hbm, ⟨65, _⟩ => ⟨S128x640x640, .f32⟩
  | .hbm, ⟨66, _⟩ => ⟨S128x640x640, .f32⟩
  | .hbm, ⟨67, _⟩ => ⟨S128x409600, .f32⟩
  | _, _ => ⟨S128x640x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_v20 : Ref sig .tc := ⟨.hbm, 45, rfl⟩
abbrev main_cst_3 : Ref sig .tc := ⟨.hbm, 46, rfl⟩
abbrev main_v21 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_cst_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩

abbrev nD : Nat := 1
abbrev τ : Topo := Topo.v7x

variable {F : FTy → Type} [FloatOps F]

class Facts₀ : Prop where
  bcast_S_S640 : S_.BroadcastsInDim S640 (![] : Fin 0 → Fin S640.rank)
  bcast_S640_S640x1_0 : S640.BroadcastsInDim S640x1 (![0] : Fin 1 → Fin S640x1.rank)
  concatenates_S640x1_S640x1_S640x2_d1 : Shape.Concatenates [S640x1, S640x1] S640x2 1
  bcast_S128x640_S128x1x640_0_2 : S128x640.BroadcastsInDim S128x1x640 (![0, 2] : Fin 2 → Fin S128x1x640.rank)
  bcast_S128x640_S128x640x1_0_1 : S128x640.BroadcastsInDim S128x640x1 (![0, 1] : Fin 2 → Fin S128x640x1.rank)
  bcast_S128x1x640_S128x640x640_0_1_2 : S128x1x640.BroadcastsInDim S128x640x640 (![0, 1, 2] : Fin 3 → Fin S128x640x640.rank)
  bcast_S128x640x1_S128x640x640_0_1_2 : S128x640x1.BroadcastsInDim S128x640x640 (![0, 1, 2] : Fin 3 → Fin S128x640x640.rank)
  bcast_S_S128x640x640 : S_.BroadcastsInDim S128x640x640 (![] : Fin 0 → Fin S128x640x640.rank)
  bcast_S1x1_S1x1x1_1_2 : S1x1.BroadcastsInDim S1x1x1 (![1, 2] : Fin 2 → Fin S1x1x1.rank)
  bcast_S1x1x1_S128x640x640_0_1_2 : S1x1x1.BroadcastsInDim S128x640x640 (![0, 1, 2] : Fin 3 → Fin S128x640x640.rank)
  reducesTo_S128x640x640_S128x640_d2 : S128x640x640.ReducesTo [2] S128x640
  h_S_ : 0 < S_.numel
  bcast_S_S128x640x1 : S_.BroadcastsInDim S128x640x1 (![] : Fin 0 → Fin S128x640x1.rank)
  reducesTo_S128x640x640_S128x640_d1 : S128x640x640.ReducesTo [1] S128x640
  bcast_S_S128x1x640 : S_.BroadcastsInDim S128x1x640 (![] : Fin 0 → Fin S128x1x640.rank)
  reducesTo_S128x640x640_S128_d1_2 : S128x640x640.ReducesTo [1, 2] S128
  bcast_S128_S128x1x1_0 : S128.BroadcastsInDim S128x1x1 (![0] : Fin 1 → Fin S128x1x1.rank)
  bcast_S_S128x1x1 : S_.BroadcastsInDim S128x1x1 (![] : Fin 0 → Fin S128x1x1.rank)
  bcast_S128x1x1_S128x640x640_0_1_2 : S128x1x1.BroadcastsInDim S128x640x640 (![0, 1, 2] : Fin 3 → Fin S128x640x640.rank)
  shapeCasts_S128x640x640_S128x409600 : S128x640x640.ShapeCasts S128x409600
  dot_S128x640x100_S128x640x100_S128x640x640_2_2_1_1_0_0_wf : DotDims.WF S128x640x100 S128x640x100 S128x640x640 [2] [2] [1] [1] [0] [0]
  gather_S128x640x640_S640x2_S128x640_0_12_n_n_12_1_12811_wf : GatherDims.WF S128x640x640 S640x2 S128x640 [0] [1, 2] [] [1, 2] [] 1 ![128, 1, 1]

variable [Facts₀]

def dot_S128x640x100_S128x640x100_S128x640x640_2_2_1_1_0_0 : DotDims S128x640x100 S128x640x100 S128x640x640 where
  lhsContracting := [2]
  rhsContracting := [2]
  lhsNonContracting := [1]
  rhsNonContracting := [1]
  lhsBatch := [0]
  rhsBatch := [0]
  wf := dot_S128x640x100_S128x640x100_S128x640x640_2_2_1_1_0_0_wf
def gather_S128x640x640_S640x2_S128x640_0_12_n_n_12_1_12811 : GatherDims S128x640x640 S640x2 S128x640 where
  offsetDims := [0]
  collapsedSliceDims := [1, 2]
  operandBatchingDims := []
  startIndicesBatchingDims := []
  startIndexMap := [1, 2]
  indexVectorDim := 1
  sliceSizes := ![128, 1, 1]
  wf := gather_S128x640x640_S640x2_S128x640_0_12_n_n_12_1_12811_wf

class Facts : Prop extends Facts₀ where

variable [Facts]
-- ==== Proof.KernelBlock.lean ====
/-
  One sub-batch of the kernel body as a single vector function, at any float instance.

  The body handles the four 640 × 100 slices of its input block one after the other, and what it does to each is
  the same chain of vector operations: the scaled distance matrix `distV`, its row means `rowMeanV`, its column
  means `colMeanV`, the mean `totMeanV` of the row means, and the centred matrix `centredV`, stored as a
  1 × 640 × 640 slice `blockV`. The four stored values of the body are `blockV` of the scale and of the
  corresponding loaded slice (`piece0` … `piece3`): the named intermediate values only cut the same chain at
  different places.
-/
import proofs.«161795_j23794118820458_1_alg».proof.Proof.Gen.KernelIdeal.Skeleton

noncomputable section

namespace Cert.KernelBdc

open Idealize.ShloMosaic Cert.KernelIdeal Cert.KernelIdeal.Gen

variable {F : FTy → Type} [FloatOps F]

/-- The scaled distance matrix of the rows of `x`: `sqrt (s · max (‖x_p‖² + ‖x_q‖² − 2 · ⟨x_p, x_q⟩, floor) + eps)`,
    the inner products by the matrix unit on the narrowed operand, the squared norms by a lane sum. -/
def distV (s : F .f32) (x : FVec F S640x100 .f32) : FVec F S640x640 .f32 :=
  have xb : FVec F S640x100 .bf16 := truncf .bf16 x bitsLt_bf16_f32
  have xbT : FVec F S100x640 .bf16 := transpose S100x640 [1, 0] xb transposes_S640x100_p1_0_S100x640
  have g : FVec F S640x640 .f32 :=
    matmul dot_S640x100_S100x640_S640x640_1_0_0_1_n_n none xb xbT (constant S640x640 .f32 0x00000000#32)
  have d : FVec F S640x1 .f32 :=
    shapeCast S640x1 (multiReduction .add [1] S640 (mulf x x) 0x00000000#32 reduces_S640x100_S640 (.inl rfl) rfl)
      shapeCasts_S640_S640x1
  have dT : FVec F S1x640 .f32 := transpose S1x640 [1, 0] d transposes_S640x1_p1_0_S1x640
  sqrt (addf (mulf (broadcast S640x640 s)
      (maximumf (subf (addf (broadcastTo S640x640 d broadcasts_S640x1_S640x640)
            (broadcastTo S640x640 dT broadcasts_S1x640_S640x640))
          (mulf (broadcast S640x640 (Scalar.ofBits .f32 0x40000000#32)) g))
        (broadcast S640x640 (Scalar.ofBits .f32 0x38D1B717#32))))
    (broadcast S640x640 (Scalar.ofBits .f32 0x3727C5AC#32)))

/-- The row means, kept as a column. -/
def rowMeanV (D : FVec F S640x640 .f32) : FVec F S640x1 .f32 :=
  divf (shapeCast S640x1 (multiReduction .add [1] S640 D 0x00000000#32 reduces_S640x640_S640 (.inl rfl) rfl)
      shapeCasts_S640_S640x1)
    (broadcast S640x1 (Scalar.ofBits .f32 0x44200000#32))

/-- The column means, kept as a row. -/
def colMeanV (D : FVec F S640x640 .f32) : FVec F S1x640 .f32 :=
  divf (shapeCast S1x640 (multiReduction .add [0] S640 D 0x00000000#32 reduces_S640x640_S640_2 (.inl rfl) rfl)
      shapeCasts_S640_S1x640)
    (broadcast S1x640 (Scalar.ofBits .f32 0x44200000#32))

/-- The mean of a column of 640 values, kept as a 1 × 1 matrix. -/
def totMeanV (R : FVec F S640x1 .f32) : FVec F S1x1 .f32 :=
  divf (shapeCast S1x1 (multiReduction .add [0] S1 R 0x00000000#32 reduces_S640x1_S1 (.inl rfl) rfl)
      shapeCasts_S1_S1x1)
    (broadcast S1x1 (Scalar.ofBits .f32 0x44200000#32))

/-- The doubly centred matrix: minus the row means, minus the column means, plus the mean of the row means. -/
def centredV (D : FVec F S640x640 .f32) : FVec F S640x640 .f32 :=
  addf (subf (subf D (broadcastTo S640x640 (rowMeanV D) broadcasts_S640x1_S640x640))
      (broadcastTo S640x640 (colMeanV D) broadcasts_S1x640_S640x640))
    (broadcastTo S640x640 (totMeanV (rowMeanV D)) broadcasts_S1x1_S640x640)

/-- What the body stores for one loaded slice `v` under the scale `s`. -/
def blockV (s : F .f32) (v : Vec F S1x640x100 .f32) : FVec F S1x640x640 .f32 :=
  shapeCast S1x640x640 (centredV (distV s (shapeCast S640x100 v shapeCasts_S1x640x100_S640x100)))
    shapeCasts_S640x640_S1x640x640

/-- The first stored slice. -/
theorem piece0 (v0 : Vec F S1x1 .f32) (v : Vec F S1x640x100 .f32) :
    k0_pay7 (k0_pay5 v0 v) (k0_pay6 v0 v) = blockV (k0_pay2 v0) v := rfl

/-- The second stored slice. -/
theorem piece1 (s : F .f32) (v : Vec F S1x640x100 .f32) :
    k0_pay13 (k0_pay10 s v) (k0_pay11 s v) (k0_pay12 s v) = blockV s v := rfl

/-- The third stored slice. -/
theorem piece2 (s : F .f32) (v : Vec F S1x640x100 .f32) :
    k0_pay19 (k0_pay14 s v) (k0_pay16 s v) (k0_pay17 s v) (k0_pay18 s v) = blockV s v := rfl

/-- The fourth stored slice. -/
theorem piece3 (s : F .f32) (v : Vec F S1x640x100 .f32) :
    k0_pay1 (k0_pay20 s v) (k0_pay21 s v) (k0_pay22 s v) (k0_pay23 s v) (k0_pay24 (F := F)) = blockV s v := rfl

end Cert.KernelBdc

end
-- ==== Proof.Consts.lean ====
/-
  The two float words that the mean divisions spell, as the real numbers they denote at the ideal values:
  `640.0` (the length of a row or a column of the distance matrix) and `409600.0 = 640 · 640` (the number of its
  entries). Every other word of the two programs occurs on both sides in the same place and is never evaluated.
-/
import Idealize.ShloMosaic.PureOps.Ideal

noncomputable section

namespace Cert.Consts

open Idealize.ShloMosaic

/-- The word `0x44200000` denotes the real number 640. -/
theorem ofBits_640 : Ideal.ofBits .f32 0x44200000#32 = ((640 : ℝ) : EReal) := by
  simp [Ideal.ofBits, Ideal.ieee, -EReal.coe_mul]; norm_num

/-- The word `0x48C80000` denotes the real number 409600. -/
theorem ofBits_409600 : Ideal.ofBits .f32 0x48C80000#32 = ((409600 : ℝ) : EReal) := by
  simp [Ideal.ofBits, Ideal.ieee, -EReal.coe_mul]; norm_num

end Cert.Consts

end
-- ==== Proof.Spec.lean ====
/-
  The function both programs compute, on the extended reals.

  For one batch entry `X` (a 640 × 100 matrix) and a scale `s`:
  * `gram X p q = Σ_k X p k · X q k`, the Gram matrix; its diagonal `gram X p p` is the squared norm of row `p`;
  * `dist s X p q = sqrt (s · max (‖X p‖² + ‖X q‖² − 2 · gram X p q, floor) + eps)`, the scaled distance matrix;
  * a 640 × 640 matrix `D` is doubly centred: `D p q − rowMean D p − colMean D q + (the mean of all entries)`.
  The mean of all entries is written in two ways: as the mean of the row means (`meanOfRowMeans`) and as the sum of
  all entries divided by 640 · 640 (`meanOfAll`). They agree on every matrix of extended reals, infinite entries
  included, because dividing by a positive real number is multiplying by a nonnegative finite constant, and such a
  constant distributes over any sum of extended reals (`meanOfRowMeans_eq_meanOfAll`).
-/
import Idealize.ShloMosaic.PureOps.Ideal
import Idealize.ShloMosaic.Lib.ValueIdx
import proofs.«161795_j23794118820458_1_alg».proof.Proof.Consts

noncomputable section

open scoped BigOperators

namespace Cert.Bdc

open Idealize.ShloMosaic Idealize.ShloMosaic.ValueIdx

/-- The words of the float constants, read at the ideal values. -/
abbrev two : EReal := Ideal.ofBits .f32 0x40000000#32
abbrev floorC : EReal := Ideal.ofBits .f32 0x38D1B717#32
abbrev epsC : EReal := Ideal.ofBits .f32 0x3727C5AC#32
abbrev n640 : EReal := Ideal.ofBits .f32 0x44200000#32
abbrev n409600 : EReal := Ideal.ofBits .f32 0x48C80000#32

/-- The Gram matrix of the rows of `X`. -/
def gram (X : Fin 640 → Fin 100 → EReal) (p q : Fin 640) : EReal := ∑ k : Fin 100, X p k * X q k

/-- The scaled, floored distance between rows `p` and `q`, under the square root. -/
def dist (s : EReal) (X : Fin 640 → Fin 100 → EReal) (p q : Fin 640) : EReal :=
  Ideal.sqrt (s * max ((gram X p p + gram X q q) - two * gram X p q) floorC + epsC)

def rowMean (D : Fin 640 → Fin 640 → EReal) (p : Fin 640) : EReal := Ideal.div (∑ q : Fin 640, D p q) n640
def colMean (D : Fin 640 → Fin 640 → EReal) (q : Fin 640) : EReal := Ideal.div (∑ p : Fin 640, D p q) n640
/-- The mean of all entries, as the mean of the row means. -/
def meanOfRowMeans (D : Fin 640 → Fin 640 → EReal) : EReal := Ideal.div (∑ p : Fin 640, rowMean D p) n640
/-- The mean of all entries, as their sum over the number of entries. -/
def meanOfAll (D : Fin 640 → Fin 640 → EReal) : EReal := Ideal.div (∑ p : Fin 640, ∑ q : Fin 640, D p q) n409600

/-- A nonnegative finite constant distributes over a finite sum of extended reals. -/
theorem sum_mul_coe_of_nonneg {ι : Type} (S : Finset ι) (f : ι → EReal) {a : ℝ} (ha : 0 ≤ a) :
    ∑ i ∈ S, f i * (a : EReal) = (∑ i ∈ S, f i) * (a : EReal) := by
  classical
  induction S using Finset.induction_on with
  | empty => simp
  | insert i S hi ih =>
    rw [Finset.sum_insert hi, Finset.sum_insert hi, ih,
      EReal.right_distrib_of_nonneg_of_ne_top (EReal.coe_nonneg.mpr ha) (EReal.coe_ne_top a)]

/-- The mean of the row means is the mean of all entries. -/
theorem meanOfRowMeans_eq_meanOfAll (D : Fin 640 → Fin 640 → EReal) : meanOfRowMeans D = meanOfAll D := by
  unfold meanOfRowMeans meanOfAll rowMean n640 n409600
  rw [Cert.Consts.ofBits_640, Cert.Consts.ofBits_409600]
  simp only [Ideal.div_coe (by norm_num : (640 : ℝ) ≠ 0), Ideal.div_coe (by norm_num : (409600 : ℝ) ≠ 0)]
  rw [sum_mul_coe_of_nonneg _ _ (by norm_num : (0 : ℝ) ≤ 1 / 640), mul_assoc, ← EReal.coe_mul]
  norm_num

/-- The doubly centred matrix. -/
def centred (D : Fin 640 → Fin 640 → EReal) (p q : Fin 640) : EReal :=
  ((D p q - rowMean D p) - colMean D q) + meanOfRowMeans D

/-- Batch entry `b` of the input as a matrix. -/
def batch (x : (⟨3, ![128, 640, 100]⟩ : Shape).Idx → EReal) (b : Fin 128) : Fin 640 → Fin 100 → EReal :=
  fun p k => x (ix3 b p k)

/-- The result before the final reshape, as one function of the two arguments: entry `(b, p, q)` is the doubly
    centred scaled distance matrix of batch entry `b` at `(p, q)`, the scale being the exponential of the one
    entry of `t`. -/
def G3 (x : (⟨3, ![128, 640, 100]⟩ : Shape).Idx → EReal) (t : (⟨2, ![1, 1]⟩ : Shape).Idx → EReal) :
    (⟨3, ![128, 640, 640]⟩ : Shape).Idx → EReal :=
  fun j => centred (dist (Ideal.exp (t (ix2 0 0))) (batch x (j 0))) (j 1) (j 2)

end Cert.Bdc

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.LibColumns.lean ====
/-
  General lemmas: a sum along the FIRST axis of a matrix, and a 1 × 1 matrix broadcast over a matrix, read at an index.

  * `colSum_ab_apply`: at the ideal values the f32 sum of an `[a, b]` matrix over its rows (a
    `vector.multi_reduction <add>` over axis 0 into `[b]`) is, at column `q`, `Σ k, v (k, q)`;
  * `broadcastTo_11_ab_apply`: a `[1, 1]` matrix broadcast to `[a, b]` reads its one entry everywhere;
  * `sqrt_apply`: the vector square root acts entry by entry.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- At the ideal values an f32 sum of an `[a, b]` matrix over axis 0 (from the sum's neutral word) is, at column
    `q`, the sum over the column's entries. -/
theorem colSum_ab_apply {a b : ℕ} (v : FVec Ideal ⟨2, ![a, b]⟩ .f32) (acc : BitVec FTy.f32.bits)
    (h : (⟨2, ![a, b]⟩ : Shape).Reduces [0] ⟨1, ![b]⟩) (hφ : FKind.Formats .f32) (hacc : acc = FKind.add.neutral .f32 hφ)
    (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun ax => Fin.ext (by
      match ax with
      | ⟨0, _⟩ => rfl
      | ⟨1, _⟩ => rfl)))

/-- A `[1, 1]` matrix broadcast to `[a, b]` reads, at every `(p, c)`, its one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The vector square root at an index, at the ideal values. -/
theorem sqrt_apply {s : Shape} {φ : FTy} (x : FVec Ideal s φ) (i : s.Idx) : sqrt x i = Ideal.sqrt (x i) := rfl

end Idealize.ShloMosaic.ValueIdx

end
-- ==== Proof.KernelBlockAt.lean ====
/-
  One sub-batch of the kernel body read entry by entry at the ideal values.

  A change of float format is the identity, the matrix unit's product into a zero accumulator is the plain sum of
  products over the contracted axis, a lane sum or a sum over rows is a finite sum, and the shape casts, the
  transposes and the broadcasts only move an entry. So entry `(p, q)` of the stored slice is the doubly centred scaled
  distance matrix of the loaded slice at `(p, q)`, in the specification's own words (`blockV_apply`).
-/
import proofs.«161795_j23794118820458_1_alg».proof.Proof.KernelBlock
import proofs.«161795_j23794118820458_1_alg».proof.Proof.Spec
import proofs.«161795_j23794118820458_1_alg».proof.Proof.LibKeepdims
import proofs.«161795_j23794118820458_1_alg».proof.Proof.LibColumns
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelBdc

open Idealize.ShloMosaic Idealize.ShloMosaic.ValueIdx Cert.KernelIdeal Cert.KernelIdeal.Gen

/-- A 640 × 100 vector as a matrix of its entries. -/
def mat (x : FVec Ideal S640x100 .f32) : Fin 640 → Fin 100 → EReal := fun p k => x (ix2 p k)
/-- A 640 × 640 vector as a matrix of its entries. -/
def mat2 (D : FVec Ideal S640x640 .f32) : Fin 640 → Fin 640 → EReal := fun p q => D (ix2 p q)

/-- The dimension numbers of the body's matrix product: rows of the left operand against columns of the right. -/
abbrev DD : DotDims S640x100 S100x640 S640x640 := dot_S640x100_S100x640_S640x640_1_0_0_1_n_n

theorem lhs_row (i : S640x640.Idx) (c : DD.contr.Idx) : (DD.lhsIdx i c 0).val = (i 0).val := by
  unfold DotDims.lhsIdx
  rw [dif_neg (show ¬(0 : Fin S640x100.rank) ∈ DD.lhsBatch by decide),
    dif_pos (show (0 : Fin S640x100.rank) ∈ DD.lhsNonContracting by decide)]
  rfl
theorem lhs_contr (i : S640x640.Idx) (c : DD.contr.Idx) : (DD.lhsIdx i c 1).val = (c ⟨0, by decide⟩).val :=
  DD.lhsIdx_val_of_single rfl i c
theorem rhs_contr (i : S640x640.Idx) (c : DD.contr.Idx) : (DD.rhsIdx i c 0).val = (c ⟨0, by decide⟩).val :=
  DD.rhsIdx_val_of_single rfl i c
theorem rhs_col (i : S640x640.Idx) (c : DD.contr.Idx) : (DD.rhsIdx i c 1).val = (i 1).val := by
  unfold DotDims.rhsIdx
  rw [dif_neg (show ¬(1 : Fin S100x640.rank) ∈ DD.rhsBatch by decide),
    dif_pos (show (1 : Fin S100x640.rank) ∈ DD.rhsNonContracting by decide)]
  rfl

/-- The matrix product of the narrowed slice with its transpose, into the zero accumulator, is the Gram matrix. -/
theorem gramV_apply (x : FVec Ideal S640x100 .f32) (p q : Fin 640) :
    matmul DD none (truncf .bf16 x bitsLt_bf16_f32)
        (transpose S100x640 [1, 0] (truncf .bf16 x bitsLt_bf16_f32) transposes_S640x100_p1_0_S100x640)
        (constant S640x640 .f32 0x00000000#32) (ix2 p q)
      = Cert.Bdc.gram (mat x) p q := by
  simp only [matmul]
  rw [Ideal.matmul_constant_zero_apply, ← Equiv.sum_comp (contrEquiv1 DD 100 rfl rfl).symm]
  unfold Cert.Bdc.gram
  refine Finset.sum_congr rfl fun k _ => ?_
  have hk := contrEquiv1_symm_val DD 100 rfl rfl k
  have el : DD.lhsIdx (ix2 p q) ((contrEquiv1 DD 100 rfl rfl).symm k) = ix2 p k := funext fun a => Fin.ext (by
    match a with
    | ⟨0, _⟩ => exact lhs_row _ _
    | ⟨1, _⟩ => exact (lhs_contr _ _).trans hk)
  have er : DD.rhsIdx (ix2 p q) ((contrEquiv1 DD 100 rfl rfl).symm k) = ix2 k q := funext fun a => Fin.ext (by
    match a with
    | ⟨0, _⟩ => exact (rhs_contr _ _).trans hk
    | ⟨1, _⟩ => exact rhs_col _ _)
  rw [el, er, transpose_ix2_apply]
  rfl

/-- The squared norm of row `r`, by the lane sum of the squares, is the Gram matrix's diagonal entry. -/
theorem sqnorm_apply (x : FVec Ideal S640x100 .f32) (r : Fin 640) :
    multiReduction .add [1] S640 (mulf x x) 0x00000000#32 reduces_S640x100_S640 (.inl rfl) rfl (ix1 r)
      = Cert.Bdc.gram (mat x) r r :=
  laneSum_ab_apply (mulf x x) _ _ _ _ r

/-- The scaled distance matrix at `(p, q)`. -/
theorem distV_apply (s : Ideal .f32) (x : FVec Ideal S640x100 .f32) (p q : Fin 640) :
    distV s x (ix2 p q) = Cert.Bdc.dist s (mat x) p q := by
  have h1 : broadcastTo S640x640 (shapeCast S640x1
        (multiReduction .add [1] S640 (mulf x x) 0x00000000#32 reduces_S640x100_S640 (.inl rfl) rfl)
        shapeCasts_S640_S640x1) broadcasts_S640x1_S640x640 (ix2 p q) = Cert.Bdc.gram (mat x) p p := by
    rw [broadcastTo_a1_ab_apply, shapeCast_a_a1_apply, sqnorm_apply]
  have h2 : broadcastTo S640x640 (transpose S1x640 [1, 0] (shapeCast S640x1
        (multiReduction .add [1] S640 (mulf x x) 0x00000000#32 reduces_S640x100_S640 (.inl rfl) rfl)
        shapeCasts_S640_S640x1) transposes_S640x1_p1_0_S1x640) broadcasts_S1x640_S640x640 (ix2 p q)
      = Cert.Bdc.gram (mat x) q q := by
    rw [broadcastTo_1b_ab_apply, transpose_ix2_apply, shapeCast_a_a1_apply, sqnorm_apply]
  have h3 := gramV_apply x p q
  unfold Cert.Bdc.dist
  rw [← h1, ← h2, ← h3]
  rfl

/-- The row means at row `p`. -/
theorem rowMeanV_apply (D : FVec Ideal S640x640 .f32) (p : Fin 640) :
    rowMeanV D (ix2 p (0 : Fin 1)) = Cert.Bdc.rowMean (mat2 D) p := by
  have h : shapeCast S640x1 (multiReduction .add [1] S640 D 0x00000000#32 reduces_S640x640_S640 (.inl rfl) rfl)
      shapeCasts_S640_S640x1 (ix2 p (0 : Fin 1)) = ∑ q : Fin 640, mat2 D p q := by
    rw [shapeCast_a_a1_apply]
    exact laneSum_ab_apply D _ _ _ _ p
  unfold Cert.Bdc.rowMean
  rw [← h]
  rfl

/-- The column means at column `q`. -/
theorem colMeanV_apply (D : FVec Ideal S640x640 .f32) (q : Fin 640) :
    colMeanV D (ix2 (0 : Fin 1) q) = Cert.Bdc.colMean (mat2 D) q := by
  have h : shapeCast S1x640 (multiReduction .add [0] S640 D 0x00000000#32 reduces_S640x640_S640_2 (.inl rfl) rfl)
      shapeCasts_S640_S1x640 (ix2 (0 : Fin 1) q) = ∑ p : Fin 640, mat2 D p q := by
    rw [shapeCast_a_1a_apply]
    exact colSum_ab_apply D _ _ _ _ q
  unfold Cert.Bdc.colMean
  rw [← h]
  rfl

/-- The mean of a column of 640 values. -/
theorem totMeanV_apply (R : FVec Ideal S640x1 .f32) :
    totMeanV R (ix2 (0 : Fin 1) (0 : Fin 1)) = Ideal.div (∑ p : Fin 640, R (ix2 p (0 : Fin 1))) Cert.Bdc.n640 := by
  have h : shapeCast S1x1 (multiReduction .add [0] S1 R 0x00000000#32 reduces_S640x1_S1 (.inl rfl) rfl)
      shapeCasts_S1_S1x1 (ix2 (0 : Fin 1) (0 : Fin 1)) = ∑ p : Fin 640, R (ix2 p (0 : Fin 1)) := by
    rw [shapeCast_a_a1_apply]
    exact colSum_ab_apply R _ _ _ _ (0 : Fin 1)
  rw [← h]
  rfl

/-- The doubly centred matrix at `(p, q)`. -/
theorem centredV_apply (D : FVec Ideal S640x640 .f32) (p q : Fin 640) :
    centredV D (ix2 p q) = Cert.Bdc.centred (mat2 D) p q := by
  have h1 : broadcastTo S640x640 (rowMeanV D) broadcasts_S640x1_S640x640 (ix2 p q) = Cert.Bdc.rowMean (mat2 D) p := by
    rw [broadcastTo_a1_ab_apply, rowMeanV_apply]
  have h2 : broadcastTo S640x640 (colMeanV D) broadcasts_S1x640_S640x640 (ix2 p q) = Cert.Bdc.colMean (mat2 D) q := by
    rw [broadcastTo_1b_ab_apply, colMeanV_apply]
  have h3 : broadcastTo S640x640 (totMeanV (rowMeanV D)) broadcasts_S1x1_S640x640 (ix2 p q)
      = Cert.Bdc.meanOfRowMeans (mat2 D) := by
    rw [broadcastTo_11_ab_apply, totMeanV_apply]
    unfold Cert.Bdc.meanOfRowMeans
    exact congrArg (fun z => Ideal.div z Cert.Bdc.n640) (Finset.sum_congr rfl fun r _ => rowMeanV_apply D r)
  unfold Cert.Bdc.centred
  rw [← h1, ← h2, ← h3]
  rfl

/-- The stored slice at `(u, p, q)`: the doubly centred scaled distance matrix of the loaded slice. -/
theorem blockV_apply (s : Ideal .f32) (v : Vec Ideal S1x640x100 .f32) (u : Fin 1) (p q : Fin 640) :
    blockV s v (ix3 u p q)
      = Cert.Bdc.centred (Cert.Bdc.dist s fun p k => v (ix3 (0 : Fin 1) p k)) p q := by
  unfold blockV
  rw [shapeCast_ab_1ab_apply, centredV_apply]
  refine congrArg (fun D => Cert.Bdc.centred D p q) (funext fun a => funext fun b => ?_)
  show distV s _ (ix2 a b) = _
  rw [distV_apply]
  refine congrArg (fun X => Cert.Bdc.dist s X a b) (funext fun a' => funext fun k => ?_)
  exact shapeCast_1ab_ab_apply v _ a' k

end Cert.KernelBdc

end
-- ==== Proof.KernelOutBlock.lean ====
/-
  The output block of one grid point as one function of the point's two input blocks.

  The body stores four 1 × 640 × 640 slices, at offsets 0, 1, 2, 3 along the leading axis of its 4 × 640 × 640 output
  block, and slice `i` is the doubly centred scaled distance matrix of slice `i` of the 4 × 640 × 100 input block
  (`piece_at`). The four rectangles tile the block, so entry `(i, p, q)` of the block is that matrix of input slice
  `i` at `(p, q)` (`out0_2_eq`). The scale is the exponential of the one entry of the second input block.
-/
import proofs.«161795_j23794118820458_1_alg».proof.Proof.Gen.KernelIdeal.Frame
import proofs.«161795_j23794118820458_1_alg».proof.Proof.KernelBlockAt

noncomputable section
open scoped BigOperators
namespace Cert.KernelBdc
open Idealize.ShloMosaic Idealize.ShloMosaic.ValueIdx Cert.KernelIdeal Cert.KernelIdeal.Gen

/-- The zero offsets of the scale's load, spelt as a constant function. -/
theorem hz2 : (![0, 0] : Fin 2 → Nat) = fun _ => 0 := funext fun a => by fin_cases a <;> rfl

/-- Entry `(i, p, q)` of the output block: the doubly centred scaled distance matrix of slice `i` of `x0` at `(p, q)`,
    under the scale `exp` of the entry of `x1`. -/
def blockG (x0 : Vec Ideal S4x640x100 .f32) (x1 : Vec Ideal S1x1 .f32) : Vec Ideal S4x640x640 .f32 :=
  fun y => Cert.Bdc.centred (Cert.Bdc.dist (Ideal.exp (x1 (ix2 0 0))) (fun p k => x0 (ix3 (y 0) p k))) (y 1) (y 2)

/-- The scale the body computes from its loaded 1 × 1 block. -/
theorem scale_eq (x1 : Vec Ideal S1x1 .f32) : k0_pay2 (View.ld x1 r0_0) = Ideal.exp (x1 (ix2 0 0)) := by
  rw [View.ld_unit_zero (S := S1x1) hz2]
  unfold k0_pay2
  show Ideal.exp (x1 _) = _
  refine congrArg (fun j => Ideal.exp (x1 j)) (funext fun a => ?_)
  match a with
  | ⟨0, _⟩ => rfl
  | ⟨1, _⟩ => rfl

/-- The slice stored at offset `i`, at a local index `x`, is the matrix of input slice `i` at the coordinates the
    store's rectangle gives `x` in the block. -/
theorem piece_at (i : ℕ) (inbO : ∀ a, (![i, 0, 0] : Fin 3 → ℕ) a + S1x640x640.size a ≤ S4x640x640.size a)
    (inbI : ∀ a, (![i, 0, 0] : Fin 3 → ℕ) a + S1x640x100.size a ≤ S4x640x100.size a) (s : Ideal .f32)
    (x0 : Vec Ideal S4x640x100 .f32) (x : (Rect.unit (s := S4x640x640) ![i, 0, 0] S1x640x640.size inbO).shape.Idx) :
    blockV s (View.ld x0 (Rect.unit (s := S4x640x100) ![i, 0, 0] S1x640x100.size inbI)) x
      = Cert.Bdc.centred (Cert.Bdc.dist s fun p k =>
          x0 (ix3 ((Rect.unit (s := S4x640x640) ![i, 0, 0] S1x640x640.size inbO).emb x 0) p k))
        ((Rect.unit (s := S4x640x640) ![i, 0, 0] S1x640x640.size inbO).emb x 1)
        ((Rect.unit (s := S4x640x640) ![i, 0, 0] S1x640x640.size inbO).emb x 2) := by
  obtain ⟨u, p, q, rfl⟩ : ∃ (u : Fin 1) (p q : Fin 640), x = ix3 u p q := ⟨x 0, x 1, x 2, eq_ix3 x⟩
  rw [blockV_apply]
  have e1 : (Rect.unit (s := S4x640x640) ![i, 0, 0] S1x640x640.size inbO).emb (ix3 u p q) 1 = p := by
    apply Fin.ext
    simp only [Rect.emb_apply, Rect.off_unit, Rect.stride_unit, Nat.one_mul]
    exact Nat.zero_add _
  have e2 : (Rect.unit (s := S4x640x640) ![i, 0, 0] S1x640x640.size inbO).emb (ix3 u p q) 2 = q := by
    apply Fin.ext
    simp only [Rect.emb_apply, Rect.off_unit, Rect.stride_unit, Nat.one_mul]
    exact Nat.zero_add _
  rw [e1, e2]
  refine congrArg (fun X => Cert.Bdc.centred (Cert.Bdc.dist s X) p q) (funext fun p' => funext fun k => ?_)
  show x0 _ = x0 _
  refine congrArg x0 (funext fun a => Fin.ext ?_)
  have hu : u.val = 0 := by omega
  match a with
  | ⟨0, _⟩ =>
    simp only [LoadRect.idx_apply, Rect.emb_apply, Rect.off_unit, Rect.stride_unit, Nat.one_mul]
    show i + 0 = i + u.val
    rw [hu]
  | ⟨1, _⟩ =>
    simp only [LoadRect.idx_apply, Rect.emb_apply, Rect.off_unit, Rect.stride_unit, Nat.one_mul]
    exact Nat.zero_add _
  | ⟨2, _⟩ =>
    simp only [LoadRect.idx_apply, Rect.emb_apply, Rect.off_unit, Rect.stride_unit, Nat.one_mul]
    exact Nat.zero_add _

/-- The output block after the body is one function of the two input blocks. -/
theorem out0_2_eq (x0 : Vec Ideal S4x640x100 .f32) (x1 : Vec Ideal S1x1 .f32) : out0_2 x0 x1 = blockG x0 x1 := by
  funext y
  unfold out0_2
  rw [piece0, piece1, piece2, piece3, scale_eq]
  refine View.canon_apply_of_pieces (Val := Elt Ideal) (blockG x0 x1) _ ?_ y (cover0_2 _ _ _ _ y)
  intro pc hpc x
  simp only [List.mem_cons, List.mem_singleton, List.not_mem_nil, or_false] at hpc
  rcases hpc with rfl | rfl | rfl | rfl
  · exact piece_at 3 inb_S4x640x640_S1x640x640_3_0_0 inb_S4x640x100_S1x640x100_3_0_0 _ x0 x
  · exact piece_at 2 inb_S4x640x640_S1x640x640_2_0_0 inb_S4x640x100_S1x640x100_2_0_0 _ x0 x
  · exact piece_at 1 inb_S4x640x640_S1x640x640_1_0_0 inb_S4x640x100_S1x640x100_1_0_0 _ x0 x
  · exact piece_at 0 inb_S4x640x640_S1x640x640_0_0_0 inb_S4x640x100_S1x640x100_0_0_0 _ x0 x

end Cert.KernelBdc
end
-- ==== Proof.KernelArray.lean ====
/-
  From the grid points' blocks to the kernel's result.

  The grid has 32 points; point `t` reads batch entries `4t … 4t + 3` of the first argument (the whole second
  argument) and writes batch entries `4t … 4t + 3` of the 128 × 640 × 640 output array. What it writes is the
  corresponding block of ONE function of the two arguments, the specification's `G3` (`flushed_eq`); the 32 blocks
  cover the array (`cover`), so after the region the array holds `G3` of the arguments (`final`). The program
  then reshapes the array to 128 × 409600, which is its result (`tail_eq`, `run`).
-/
import proofs.«161795_j23794118820458_1_alg».proof.Proof.Gen.KernelIdeal.Frame
import proofs.«161795_j23794118820458_1_alg».proof.Proof.KernelOutBlock
import Idealize.ShloMosaic.Lib.Pipeline.Value
import Idealize.ShloMosaic.Lib.StableHlo.Run

set_option maxRecDepth 16384
noncomputable section
open scoped BigOperators
namespace Cert.KernelBdc
open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The three index maps over the grid: the first argument's and the output's blocks move along the batch axis with
    the point, everything else stays at block 0. -/
theorem idx_facts : ∀ t : Fin cfg0.N, win0_0.index t (0 : Fin 3) = t.val ∧ win0_0.index t (1 : Fin 3) = 0
    ∧ win0_0.index t (2 : Fin 3) = 0 ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Entry `(i, p, k)` of the first argument's block at point `t` is entry `(4t + i, p, k)` of the argument. -/
theorem iblk0_apply (c : Dev nD) (t : Fin cfg0.N) (x : S4x640x100.Idx) (k : S128x640x100.Idx)
    (h0 : (k 0).val = 4 * t.val + (x 0).val) (h1 : (k 1).val = (x 1).val) (h2 : (k 2).val = (x 2).val) :
    (iblk m c 0 t : Vec Ideal S4x640x100 .f32) x = V m c main_arg0 k := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t 0 * 4 + 1 * (x 0).val = (k 0).val; rw [e0, h0]; omega
  | ⟨1, _⟩ => show win0_0.index t 1 * 640 + 1 * (x 1).val = (k 1).val; rw [e1, h1]; omega
  | ⟨2, _⟩ => show win0_0.index t 2 * 100 + 1 * (x 2).val = (k 2).val; rw [e2, h2]; omega

/-- The second argument has one entry, which every point's block reads. -/
theorem iblk1_apply (c : Dev nD) (t : Fin cfg0.N) (x k : S1x1.Idx) :
    (iblk m c 1 t : Vec Ideal S1x1 .f32) x = V m c main_arg1 k := by
  obtain ⟨-, -, -, e0, e1, -⟩ := idx_facts t
  unfold iblk
  rw [View.read_apply]
  show V m c main_arg1 _ = V m c main_arg1 _
  refine congrArg (V m c main_arg1) (funext fun a => Fin.ext ?_)
  match a with
  | ⟨0, _⟩ =>
    show win0_1.index t 0 * 1 + 1 * (x 0).val = (k 0).val
    have hx : (x 0).val < 1 := (x 0).isLt
    have hk : (k 0).val < 1 := (k 0).isLt
    rw [e0]; omega
  | ⟨1, _⟩ =>
    show win0_1.index t 1 * 1 + 1 * (x 1).val = (k 1).val
    have hx : (x 1).val < 1 := (x 1).isLt
    have hk : (k 1).val < 1 := (k 1).isLt
    rw [e1]; omega

/-- The centred distance matrix depends only on the scale, the matrix and the two coordinates. -/
theorem centred_dist_congr {s s' : EReal} {X X' : Fin 640 → Fin 100 → EReal} {p p' q q' : Fin 640}
    (hs : s = s') (hX : X = X') (hp : p = p') (hq : q = q') :
    Cert.Bdc.centred (Cert.Bdc.dist s X) p q = Cert.Bdc.centred (Cert.Bdc.dist s' X') p' q' := by
  subst hs hX hp hq; rfl

/-- What point `t` writes back is block `t` of `G3` of the two arguments. -/
theorem flushed_eq (c : Dev nD) (t : Fin cfg0.N) :
    (dats m 0 c).flushed 2 t
      = ((cfg0.win 2).blk t).view.read (Elt Ideal) (Cert.Bdc.G3 (V m c main_arg0) (V m c main_arg1)) := by
  show (cfg0.win 2).cut (grid0.coords t) ((dats m 0 c).after 2 t) = _
  rw [after0_2]
  funext y
  refine (congrFun (out0_2_eq (iblk m c 0 t) (iblk m c 1 t)) y).trans ?_
  obtain ⟨-, -, -, -, -, e0, e1, e2⟩ := idx_facts t
  rw [View.read_apply]
  unfold blockG Cert.Bdc.G3 Cert.Bdc.batch
  refine centred_dist_congr ?_ ?_ ?_ ?_
  · exact congrArg Ideal.exp (iblk1_apply m c t _ _)
  · funext p k
    refine iblk0_apply m c t _ _ ?_ rfl rfl
    show win0_2.index t 0 * 4 + 1 * (y 0).val = 4 * t.val + (y 0).val
    rw [e0]; omega
  · refine Fin.ext ?_
    show (y 1).val = win0_2.index t 1 * 640 + 1 * (y 1).val
    rw [e1]; omega
  · refine Fin.ext ?_
    show (y 2).val = win0_2.index t 2 * 640 + 1 * (y 2).val
    rw [e2]; omega

/-- An index of the output array lies in point `t`'s block iff each coordinate lies in the block's range. -/
theorem mem_blk (t : Fin cfg0.N) (i : S128x640x640.Idx) :
    i ∈ ((cfg0.win 2).blk t).view.set ↔ ∀ a : Fin 3, win0_2.index t a * S4x640x640.size a ≤ (i a).val
      ∧ (i a).val < win0_2.index t a * S4x640x640.size a + S4x640x640.size a := by
  show i ∈ ((View.whole main_v0).slice (win0_2.rect t)).set ↔ _
  rw [View.set_slice_whole, Rect.mem_set_unit]
  exact Iff.rfl

/-- Every index of the output array lies in the block of the point `⌊b / 4⌋`, `b` its batch coordinate. -/
theorem cover (i : S128x640x640.Idx) :
    ∃ t : Fin cfg0.N, (cfg0.win 2).flush t = true ∧ i ∈ ((cfg0.win 2).blk t).view.set := by
  have hi0 : (i 0).val < 128 := (i 0).isLt
  have hi1 : (i 1).val < 640 := (i 1).isLt
  have hi2 : (i 2).val < 640 := (i 2).isLt
  have hN : cfg0.N = 32 := N_0
  let t : Fin cfg0.N := ⟨(i 0).val / 4, by rw [hN]; omega⟩
  obtain ⟨-, -, -, -, -, e0, e1, e2⟩ := idx_facts t
  refine ⟨t, flush0_2 t, ?_⟩
  rw [mem_blk]
  intro a
  match a with
  | ⟨0, _⟩ =>
    show win0_2.index t 0 * 4 ≤ (i 0).val ∧ (i 0).val < win0_2.index t 0 * 4 + 4
    rw [e0]; show (i 0).val / 4 * 4 ≤ (i 0).val ∧ (i 0).val < (i 0).val / 4 * 4 + 4; omega
  | ⟨1, _⟩ =>
    show win0_2.index t 1 * 640 ≤ (i 1).val ∧ (i 1).val < win0_2.index t 1 * 640 + 640
    rw [e1]; omega
  | ⟨2, _⟩ =>
    show win0_2.index t 2 * 640 ≤ (i 2).val ∧ (i 2).val < win0_2.index t 2 * 640 + 640
    rw [e2]; omega

/-- After the region the output array holds `G3` of the two arguments. -/
theorem final (c : Dev nD) :
    (dats m 0 c).arrAt 2 cfg0.N = Cert.Bdc.G3 (V m c main_arg0) (V m c main_arg1) :=
  (dats m 0 c).arrAt_eq_of_cover 2 (Cert.Bdc.G3 (V m c main_arg0) (V m c main_arg1))
    (fun t _ => flushed_eq m c t) (cover)

/-- The program's result: the reshape of the region's output array. -/
theorem tail_eq (c : Dev nD) :
    Pipeline.afterTail₀ cfgs (dats m) 0 (V0 m) [hostOps1] c main_v1
      = shapeCast S128x409600 (Cert.Bdc.G3 (m ((c.tc : Thread nD τ).loc main_arg0)) (m ((c.tc : Thread nD τ).loc main_arg1)))
          shapeCasts_S128x640x640_S128x409600 := by
  unfold Pipeline.afterTail₀
  show StableHlo.after hostOps1 _ (Proc.devRef .tc main_v1) = _
  after_results
  have hw : Pipeline.withArrays (cfgs 0).spec c (V0 m c) (fun w => (dats m 0 c).arrAt w (cfgs 0).N)
      (Proc.tc.devRef main_v0) = Cert.Bdc.G3 (m ((c.tc : Thread nD τ).loc main_arg0)) (m ((c.tc : Thread nD τ).loc main_arg1)) :=
    (Pipeline.withArrays_arr spec0 launch0.win.arr_inj c _ _ 2).trans (final m c)
  exact congrArg (fun A => shapeCast S128x409600 A shapeCasts_S128x640x640_S128x409600) hw

/-- Every weakly fair execution terminates with the result at the reshape of `G3` of the arguments, the arguments
    unchanged. -/
theorem run : θ_run defs (onTc (τ := τ) (main (F := Ideal))) ⟨m, fun _ => 0, ρ⟩ fun r => ∀ c : Dev nD,
      r.2.mem ((c.tc : Thread nD τ).loc main_v1)
        = shapeCast S128x409600 (Cert.Bdc.G3 (m ((c.tc : Thread nD τ).loc main_arg0)) (m ((c.tc : Thread nD τ).loc main_arg1)))
            shapeCasts_S128x640x640_S128x409600
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelBdc
end
-- ==== Proof.RefDiagonal.lean ====
/-
  The diagonal of the Gram array, as the reference takes it.

  The reference reads the diagonal `d[b, k] = gram[b, k, k]` by a gather: for every row `k < 640` a start index
  `(k, k)` into the two matrix axes, a slice of extent 128 × 1 × 1 taken at it, and the two unit axes collapsed. The
  start indices are a 640 × 2 array of 32-bit words, two copies of the column `0, 1, …, 639` joined side by side; each
  column is written as "`k` if `k` is not negative, else `k + 640`", and since `k < 640 < 2^31` the word `k` read as a
  signed integer is `k` itself, so the comparison with `0` fails and the column holds `k` at row `k`.
  A gather clamps each start index into the range where the slice fits, here `[0, 639]`, which leaves `k` unchanged.
  So the result at `(b, k)` is the operand at `(b, k, k)`.
-/
import proofs.«161795_j23794118820458_1_alg».proof.Proof.Gen.ReferenceIdeal.Read
import Idealize.ShloMosaic.Lib.ValueIdx
import Idealize.ShloMosaic.Lib.Pipeline.Value

noncomputable section

namespace Cert.RefBdc

open Cert.ReferenceIdeal Cert.ReferenceIdeal.Gen Cert.ReferenceIdeal.Read Idealize.ShloMosaic Idealize.ShloMosaic.ValueIdx

/-! ## Words: a row number below 640 as a 32-bit word -/

/-- Read as a signed integer, the word of a number below 640 is that number. -/
theorem toInt_ofNat_lt640 (k : Nat) (hk : k < 640) : (BitVec.ofNat 32 k).toInt = (k : Int) := by
  have h1 : (BitVec.ofNat 32 k).toNat = k := by
    rw [BitVec.toNat_ofNat]; omega
  rw [BitVec.toInt_eq_toNat_of_lt (by rw [h1]; omega), h1]

/-- Such a word is not below zero in the signed order. -/
theorem slt_zero_false (k : Nat) (hk : k < 640) : IntOp.cmpi .slt (BitVec.ofNat 32 k) 0#32 = 0#1 := by
  have h0 : (0#32 : BitVec 32).toInt = 0 := by decide
  show BitVec.ofBool (decide ((BitVec.ofNat 32 k).toInt < (0#32 : BitVec 32).toInt)) = 0#1
  rw [toInt_ofNat_lt640 k hk, h0, decide_eq_false (by omega)]
  rfl

/-! ## The start indices: row `k` holds `(k, k)` -/

/-- The first column of start indices holds `k` at row `k`. -/
theorem startCol0_at (k : Fin 640) : val_main_call0_v6 (F := Ideal) (ix1 k) = BitVec.ofNat 32 k.val := by
  rw [val_main_call0_v6_apply, val_main_call0_v3_apply, val_main_call0_v2_apply, val_main_call0_c_apply,
    val_main_call0_v0_apply]
  show Scalar.select (IntOp.cmpi .slt (BitVec.ofNat 32 k.val) 0#32) _ (BitVec.ofNat 32 k.val) = BitVec.ofNat 32 k.val
  rw [slt_zero_false k.val k.isLt, select_zero]

/-- The second column of start indices holds `k` at row `k`. -/
theorem startCol1_at (k : Fin 640) : val_main_call0_v11 (F := Ideal) (ix1 k) = BitVec.ofNat 32 k.val := by
  rw [val_main_call0_v11_apply, val_main_call0_v8_apply, val_main_call0_v7_apply, val_main_call0_c_1_apply,
    val_main_call0_v1_apply]
  show Scalar.select (IntOp.cmpi .slt (BitVec.ofNat 32 k.val) 0#32) _ (BitVec.ofNat 32 k.val) = BitVec.ofNat 32 k.val
  rw [slt_zero_false k.val k.isLt, select_zero]

/-- The joined array of start indices at `(k, 0)`: the first column's entry. -/
theorem startIdx_left (k : Fin 640) :
    val_main_call0_v14 (F := Ideal) (ix2 k (0 : Fin 2)) = BitVec.ofNat 32 k.val := by
  unfold val_main_call0_v14
  refine (concatenate_pair_apply_left (1 : Fin S640x2.rank) (val_main_call0_v12 (F := Ideal))
    (val_main_call0_v13 (F := Ideal)) concatenates_S640x1_S640x1_S640x2_d1 (ix2 k (0 : Fin 2)) rfl (ix2 k (0 : Fin 1))
    (fun b => by match b with | ⟨0, _⟩ => rfl | ⟨1, _⟩ => rfl)).trans ?_
  rw [val_main_call0_v12_apply]
  exact startCol0_at k

/-- The joined array of start indices at `(k, 1)`: the second column's entry. -/
theorem startIdx_right (k : Fin 640) :
    val_main_call0_v14 (F := Ideal) (ix2 k (1 : Fin 2)) = BitVec.ofNat 32 k.val := by
  unfold val_main_call0_v14
  refine (concatenate_pair_apply_right (1 : Fin S640x2.rank) (val_main_call0_v12 (F := Ideal))
    (val_main_call0_v13 (F := Ideal)) concatenates_S640x1_S640x1_S640x2_d1 (ix2 k (1 : Fin 2)) rfl rfl (ix2 k (0 : Fin 1))
    (fun b hb => by match b with | ⟨0, _⟩ => rfl | ⟨1, _⟩ => exact absurd rfl hb) rfl).trans ?_
  rw [val_main_call0_v13_apply]
  exact startCol1_at k

/-! ## The gather at `(b, k)` -/

/-- The gather's dimension numbers: offset axis 0 of the result, the operand's axes 1 and 2 collapsed and addressed
    by the two components of a start index. -/
abbrev diagDims : GatherDims S128x640x640 S640x2 S128x640 := gather_S128x640x640_S640x2_S128x640_0_12_n_n_12_1_12811

/-- A gather with these dimension numbers whose start indices at row `k` are `(k, k)` reads the operand's
    diagonal: the result at `(b, k)` is the operand at `(b, k, k)`. -/
theorem diag_gather_apply {α : Type} (x : S128x640x640.Idx → α) (idx : IVec S640x2 32) (b : Fin 128) (k : Fin 640)
    (h0 : (idx (ix2 k (0 : Fin 2))).toInt.toNat = k.val) (h1 : (idx (ix2 k (1 : Fin 2))).toInt.toNat = k.val) :
    Host.gather diagDims x idx (ix2 b k) = x (ix3 b k k) := by
  unfold Host.gather
  congr 1
  funext a
  refine Fin.ext ?_
  match a with
  | ⟨0, _⟩ =>
    show diagDims.start (ix2 b k) idx 0 + diagDims.batchCoord (ix2 b k) 0 + diagDims.offCoord (ix2 b k) 0 = b.val
    have hs : diagDims.start (ix2 b k) idx 0 = 0 := by
      unfold GatherDims.start; rw [dif_neg (by decide)]
    have ho : diagDims.offCoord (ix2 b k) 0 = b.val := by
      unfold GatherDims.offCoord; rw [dif_pos (by decide)]; rfl
    rw [GatherDims.batchCoord_eq_zero diagDims (ix2 b k) 0 List.not_mem_nil, hs, ho]
    omega
  | ⟨1, _⟩ =>
    show diagDims.start (ix2 b k) idx 1 + diagDims.batchCoord (ix2 b k) 1 + diagDims.offCoord (ix2 b k) 1 = k.val
    rw [GatherDims.batchCoord_eq_zero diagDims (ix2 b k) 1 List.not_mem_nil,
      GatherDims.offCoord_eq_zero diagDims (ix2 b k) 1 (by decide)]
    simp only [Nat.add_zero]
    unfold GatherDims.start
    rw [dif_pos (show (1 : Fin 3) ∈ diagDims.startIndexMap by decide)]
    have hsi : diagDims.siIdx (ix2 b k) ⟨List.idxOf (1 : Fin 3) diagDims.startIndexMap,
        List.idxOf_lt_length_iff.2 (show (1 : Fin 3) ∈ diagDims.startIndexMap by decide)⟩ = ix2 k (0 : Fin 2) := by
      funext c; refine Fin.ext ?_
      match c with
      | ⟨0, _⟩ => rfl
      | ⟨1, _⟩ => rfl
    rw [hsi, h0]
    show min k.val (640 - 1) = k.val
    have := k.isLt; omega
  | ⟨2, _⟩ =>
    show diagDims.start (ix2 b k) idx 2 + diagDims.batchCoord (ix2 b k) 2 + diagDims.offCoord (ix2 b k) 2 = k.val
    rw [GatherDims.batchCoord_eq_zero diagDims (ix2 b k) 2 List.not_mem_nil,
      GatherDims.offCoord_eq_zero diagDims (ix2 b k) 2 (by decide)]
    simp only [Nat.add_zero]
    unfold GatherDims.start
    rw [dif_pos (show (2 : Fin 3) ∈ diagDims.startIndexMap by decide)]
    have hsi : diagDims.siIdx (ix2 b k) ⟨List.idxOf (2 : Fin 3) diagDims.startIndexMap,
        List.idxOf_lt_length_iff.2 (show (2 : Fin 3) ∈ diagDims.startIndexMap by decide)⟩ = ix2 k (1 : Fin 2) := by
      funext c; refine Fin.ext ?_
      match c with
      | ⟨0, _⟩ => rfl
      | ⟨1, _⟩ => rfl
    rw [hsi, h1]
    show min k.val (640 - 1) = k.val
    have := k.isLt; omega

/-- The reference's diagonal at `(b, k)` is its Gram array at `(b, k, k)`. -/
theorem val_main_v1_at (x0 : (⟨S128x640x100, .f32⟩ : BufTy).Contents (Elt Ideal)) (b : Fin 128) (k : Fin 640) :
    val_main_v1 (F := Ideal) x0 (ix2 b k) = val_main_v0 (F := Ideal) x0 (ix3 b k k) := by
  unfold val_main_v1
  generalize val_main_v0 (F := Ideal) x0 = y
  exact diag_gather_apply y (val_main_call0_v14 (F := Ideal)) b k
    (by rw [startIdx_left, toInt_ofNat_lt640 k.val k.isLt]; exact Int.toNat_natCast _)
    (by rw [startIdx_right, toInt_ofNat_lt640 k.val k.isLt]; exact Int.toNat_natCast _)

end Cert.RefBdc

end
-- ==== Proof.RefDist.lean ====
/-
  The reference's Gram array and distance array, entry by entry.

  For batch entry `b`, with `X` the 640 × 100 matrix of that entry:
  * the contraction of the last axis of the input with itself is `gram X p q = Σ_k X p k · X q k` at `(b, p, q)`;
  * the diagonal read at `(b, k)` is `gram X k k`; broadcast along the rows it gives `gram X q q` at `(b, p, q)`, along
    the columns `gram X p p`, and the reference adds them in that order, `gram X q q + gram X p p`; addition of
    extended reals commutes, so this is the specification's `gram X p p + gram X q q`;
  * the scale is the exponential of the one entry of the temperature, broadcast to every index;
  * the remaining operations are pointwise, with the same float words as the specification's.
-/
import proofs.«161795_j23794118820458_1_alg».proof.Proof.Gen.ReferenceIdeal.Read
import proofs.«161795_j23794118820458_1_alg».proof.Proof.Spec
import proofs.«161795_j23794118820458_1_alg».proof.Proof.RefDiagonal
import Idealize.ShloMosaic.Lib.ValueIdx
import Idealize.ShloMosaic.PureOps.Ideal.Laws

noncomputable section

open scoped BigOperators

namespace Cert.RefBdc

open Cert.ReferenceIdeal Cert.ReferenceIdeal.Gen Cert.ReferenceIdeal.Read Idealize.ShloMosaic Idealize.ShloMosaic.ValueIdx
open Cert.Bdc

/-- The reference's contraction at `(b, p, q)` is the Gram matrix of batch entry `b` at `(p, q)`. -/
theorem val_main_v0_at (x0 : (⟨S128x640x100, .f32⟩ : BufTy).Contents (Elt Ideal)) (b : Fin 128) (p q : Fin 640) :
    val_main_v0 (F := Ideal) x0 (ix3 b p q) = gram (batch x0 b) p q := by
  rw [val_main_v0_apply]
  unfold gram batch
  refine Finset.sum_congr rfl fun k _ => ?_
  have el : lidx_main_v0 (ix3 b p q) k = ix3 b p k :=
    funext fun a => Fin.ext (by match a with | ⟨0, _⟩ => rfl | ⟨1, _⟩ => rfl | ⟨2, _⟩ => rfl)
  have er : ridx_main_v0 (ix3 b p q) k = ix3 b q k :=
    funext fun a => Fin.ext (by match a with | ⟨0, _⟩ => rfl | ⟨1, _⟩ => rfl | ⟨2, _⟩ => rfl)
  rw [el, er]

/-- The reference's distance array at `(b, p, q)` is the scaled distance matrix of batch entry `b` at `(p, q)`. -/
theorem val_main_v18_at (x0 : (⟨S128x640x100, .f32⟩ : BufTy).Contents (Elt Ideal))
    (x1 : (⟨S1x1, .f32⟩ : BufTy).Contents (Elt Ideal)) (b : Fin 128) (p q : Fin 640) :
    val_main_v18 (F := Ideal) x0 x1 (ix3 b p q)
      = Cert.Bdc.dist (Ideal.exp (x1 (ix2 (0 : Fin 1) (0 : Fin 1)))) (batch x0 b) p q := by
  rw [val_main_v18_apply, val_main_v17_apply, val_main_v15_apply, val_main_v14_apply, val_main_v13_apply,
    val_main_v12_apply, val_main_v16_apply, val_main_cst_1_apply, val_main_v11_apply, val_main_v9_apply,
    val_main_v6_apply, val_main_v4_apply, val_main_v2_apply, val_main_v5_apply, val_main_v3_apply, val_main_v8_apply,
    val_main_v7_apply, val_main_cst_apply, val_main_v10_apply, val_main_cst_0_apply]
  have e4 : idx_main_v2 (idx_main_v4 (ix3 b p q)) = ix2 b q :=
    funext fun a => Fin.ext (by match a with | ⟨0, _⟩ => rfl | ⟨1, _⟩ => rfl)
  have e5 : idx_main_v3 (idx_main_v5 (ix3 b p q)) = ix2 b p :=
    funext fun a => Fin.ext (by match a with | ⟨0, _⟩ => rfl | ⟨1, _⟩ => rfl)
  have e14 : idx_main_v13 (idx_main_v14 (ix3 b p q)) = ix2 (0 : Fin 1) (0 : Fin 1) :=
    funext fun a => Fin.ext (by match a with | ⟨0, _⟩ => rfl | ⟨1, _⟩ => rfl)
  rw [e4, e5, e14]
  simp only [val_main_v1_at, val_main_v0_at, Ideal.addf_def, Ideal.subf_def, Ideal.mulf_def, Ideal.maximumf_def,
    Ideal.hostUnary_sqrt_def, Ideal.hostUnary_exp_def, Ideal.ofBits_def]
  unfold Cert.Bdc.dist
  rw [add_comm (gram (batch x0 b) q q) (gram (batch x0 b) p p)]

end Cert.RefBdc

end
-- ==== Proof.RefTotal.lean ====
/-
  The sum of a 128 × 640 × 640 array over its last two axes, read at a batch entry.

  The reference's total mean divides the sum of ALL entries of one batch entry's 640 × 640 matrix by the number of
  entries. The host's sum over the axes 1 and 2 is, at result index `b`, the initial value plus the sum of the operand
  over the set of indices whose coordinates on the reduced axes are dropped to give `b`. That set is
  `{(b, p, q) : p, q < 640}`: an index drops to `b` exactly when its coordinate on axis 0 is `b`, and it is then
  determined by its other two coordinates. So the set is in bijection with the pairs `(p, q)`, and the sum over it is
  the double sum `∑ p, ∑ q` of the operand at `(b, p, q)`. The initial value is the zero word, which is `0`.
-/
import proofs.«161795_j23794118820458_1_alg».proof.Proof.Gen.ReferenceIdeal.Read
import Idealize.ShloMosaic.Lib.ValueIdx
import Idealize.ShloMosaic.PureOps.Ideal.Laws
import Idealize.ShloMosaic.PureOps.Reduce

noncomputable section

open scoped BigOperators

namespace Cert.RefBdc

open Cert.ReferenceIdeal Cert.ReferenceIdeal.Gen Cert.ReferenceIdeal.Read Idealize.ShloMosaic Idealize.ShloMosaic.ValueIdx

/-- Dropping the coordinates on axes 1 and 2 of `(b, p, q)` leaves `b`. -/
theorem drop12_ix3 (h : S128x640x640.ReducesTo [1, 2] S128) (b : Fin 128) (p q : Fin 640) :
    h.drop (ix3 b p q) = ix1 b := by
  funext a
  match a with
  | ⟨0, _⟩ => exact Fin.ext (h.drop_apply_val_of_eq (ix3 b p q) 0 0)

/-- An index that drops to `b` is `(b, p, q)` for its own coordinates `p`, `q` on axes 1 and 2. -/
theorem eq_ix3_of_drop12 (h : S128x640x640.ReducesTo [1, 2] S128) (b : Fin 128) (i : S128x640x640.Idx)
    (hi : h.drop i = ix1 b) : ix3 b (⟨(i 1).val, (i 1).isLt⟩ : Fin 640) (⟨(i 2).val, (i 2).isLt⟩ : Fin 640) = i := by
  funext a
  match a with
  | ⟨0, _⟩ =>
    refine Fin.ext ?_
    have e : (h.drop i 0).val = b.val := congrArg (fun j : S128.Idx => (j 0).val) hi
    rw [h.drop_apply_val_of_eq i 0 0] at e
    exact e.symm
  | ⟨1, _⟩ => rfl
  | ⟨2, _⟩ => rfl

/-- The sum over the indices that drop to `b` is the double sum over the two dropped coordinates. -/
theorem sum_filter_drop12 {M : Type} [AddCommMonoid M] (h : S128x640x640.ReducesTo [1, 2] S128)
    (y : S128x640x640.Idx → M) (b : Fin 128) :
    ∑ i ∈ Finset.univ.filter (fun i => h.drop i = ix1 b), y i = ∑ p : Fin 640, ∑ q : Fin 640, y (ix3 b p q) := by
  rw [← Finset.sum_product' (s := (Finset.univ : Finset (Fin 640))) (t := (Finset.univ : Finset (Fin 640)))
    (f := fun p q => y (ix3 b p q))]
  refine Finset.sum_nbij'
    (fun i => ((⟨(i 1).val, (i 1).isLt⟩ : Fin 640), (⟨(i 2).val, (i 2).isLt⟩ : Fin 640)))
    (fun pq => ix3 b pq.1 pq.2) ?_ ?_ ?_ ?_ ?_
  · intro i _; exact Finset.mem_product.2 ⟨Finset.mem_univ _, Finset.mem_univ _⟩
  · intro pq _; exact Finset.mem_filter.2 ⟨Finset.mem_univ _, drop12_ix3 h b pq.1 pq.2⟩
  · intro i hi; exact eq_ix3_of_drop12 h b i (Finset.mem_filter.1 hi).2
  · intro pq _; rfl
  · intro i hi; exact congrArg y (eq_ix3_of_drop12 h b i (Finset.mem_filter.1 hi).2).symm

/-- The reference's sum over both matrix axes at batch entry `b`: the sum of all entries of that entry's matrix. -/
theorem val_main_v27_at (x0 : (⟨S128x640x100, .f32⟩ : BufTy).Contents (Elt Ideal))
    (x1 : (⟨S1x1, .f32⟩ : BufTy).Contents (Elt Ideal)) (b : Fin 128) :
    val_main_v27 (F := Ideal) x0 x1 (ix1 b)
      = ∑ p : Fin 640, ∑ q : Fin 640, val_main_v18 (F := Ideal) x0 x1 (ix3 b p q) := by
  unfold val_main_v27
  generalize val_main_v18 (F := Ideal) x0 x1 = y
  simp only [Host.reduceAdd, Ideal.hostReduceAdd_def]
  unfold Ideal.hostReduceAdd
  rw [sum_filter_drop12, val_main_cst_6_apply]
  show Ideal.ofBits .f32 0x00000000#32 + _ = _
  rw [Ideal.ofBits_zero_f32, zero_add]

end Cert.RefBdc

end
-- ==== Proof.RefValue.lean ====
/-
  The reference's result before its final reshape is the specification's function.

  With `D` the scaled distance matrix of batch entry `b`:
  * the sum over the last axis at `(b, p)`, divided by the word for 640, is the mean of row `p` of `D`; broadcast
    along the columns it is read at `(b, p, q)`;
  * the sum over the middle axis at `(b, q)`, divided by the same word, is the mean of column `q`;
  * the sum over both matrix axes at `b`, divided by the word for 409600, is the sum of all entries of `D` over their
    number. The specification centres with the mean of the row means instead; the two are equal for every matrix of
    extended reals, since dividing by a positive real distributes over a sum;
  * each host sum starts from the zero word, which is `0`.
  The result at `(b, p, q)` is `((D p q − rowmean p) − colmean q) + totalmean`.
-/
import proofs.«161795_j23794118820458_1_alg».proof.Proof.Gen.ReferenceIdeal.Read
import proofs.«161795_j23794118820458_1_alg».proof.Proof.Spec
import proofs.«161795_j23794118820458_1_alg».proof.Proof.RefDist
import proofs.«161795_j23794118820458_1_alg».proof.Proof.RefTotal
import Idealize.ShloMosaic.Lib.ValueIdx
import Idealize.ShloMosaic.PureOps.Ideal.Laws

noncomputable section

open scoped BigOperators

namespace Cert.RefBdc

open Cert.ReferenceIdeal Cert.ReferenceIdeal.Gen Cert.ReferenceIdeal.Read Idealize.ShloMosaic Idealize.ShloMosaic.ValueIdx
open Cert.Bdc

/-- The scaled distance matrix of batch entry `b`. -/
abbrev distOf (x0 : (⟨S128x640x100, .f32⟩ : BufTy).Contents (Elt Ideal))
    (x1 : (⟨S1x1, .f32⟩ : BufTy).Contents (Elt Ideal)) (b : Fin 128) : Fin 640 → Fin 640 → EReal :=
  Cert.Bdc.dist (Ideal.exp (x1 (ix2 (0 : Fin 1) (0 : Fin 1)))) (batch x0 b)

/-- The reference's row mean, broadcast along the columns, at `(b, p, q)`. -/
theorem val_main_v31_at (x0 : (⟨S128x640x100, .f32⟩ : BufTy).Contents (Elt Ideal))
    (x1 : (⟨S1x1, .f32⟩ : BufTy).Contents (Elt Ideal)) (b : Fin 128) (p q : Fin 640) :
    val_main_v31 (F := Ideal) x0 x1 (ix3 b p q) = rowMean (distOf x0 x1 b) p := by
  rw [val_main_v31_apply, val_main_v22_apply, val_main_v20_apply, val_main_v21_apply, val_main_cst_3_apply]
  have e : idx_main_v20 (idx_main_v31 (ix3 b p q)) = ix2 b p :=
    funext fun a => Fin.ext (by match a with | ⟨0, _⟩ => rfl | ⟨1, _⟩ => rfl)
  rw [e, val_main_v19_apply, val_main_cst_2_apply]
  have ek : ∀ k : Fin 640, idx_main_v19 (ix2 b p) k = ix3 b p k := fun k =>
    funext fun a => Fin.ext (by match a with | ⟨0, _⟩ => rfl | ⟨1, _⟩ => rfl | ⟨2, _⟩ => rfl)
  simp only [ek, val_main_v18_at, Ideal.hostDivf_def, Ideal.ofBits_def, Ideal.ofBits_zero_f32, zero_add]
  rfl

/-- The reference's column mean, broadcast along the rows, at `(b, p, q)`. -/
theorem val_main_v33_at (x0 : (⟨S128x640x100, .f32⟩ : BufTy).Contents (Elt Ideal))
    (x1 : (⟨S1x1, .f32⟩ : BufTy).Contents (Elt Ideal)) (b : Fin 128) (p q : Fin 640) :
    val_main_v33 (F := Ideal) x0 x1 (ix3 b p q) = colMean (distOf x0 x1 b) q := by
  rw [val_main_v33_apply, val_main_v26_apply, val_main_v24_apply, val_main_v25_apply, val_main_cst_5_apply]
  have e : idx_main_v24 (idx_main_v33 (ix3 b p q)) = ix2 b q :=
    funext fun a => Fin.ext (by match a with | ⟨0, _⟩ => rfl | ⟨1, _⟩ => rfl)
  rw [e, val_main_v23_apply, val_main_cst_4_apply]
  have ek : ∀ k : Fin 640, idx_main_v23 (ix2 b q) k = ix3 b k q := fun k =>
    funext fun a => Fin.ext (by match a with | ⟨0, _⟩ => rfl | ⟨1, _⟩ => rfl | ⟨2, _⟩ => rfl)
  simp only [ek, val_main_v18_at, Ideal.hostDivf_def, Ideal.ofBits_def, Ideal.ofBits_zero_f32, zero_add]
  rfl

/-- The reference's total mean, broadcast to the whole matrix, at `(b, p, q)`. -/
theorem val_main_v35_at (x0 : (⟨S128x640x100, .f32⟩ : BufTy).Contents (Elt Ideal))
    (x1 : (⟨S1x1, .f32⟩ : BufTy).Contents (Elt Ideal)) (b : Fin 128) (p q : Fin 640) :
    val_main_v35 (F := Ideal) x0 x1 (ix3 b p q) = meanOfAll (distOf x0 x1 b) := by
  rw [val_main_v35_apply, val_main_v30_apply, val_main_v28_apply, val_main_v29_apply, val_main_cst_7_apply]
  have e : idx_main_v28 (idx_main_v35 (ix3 b p q)) = ix1 b :=
    funext fun a => Fin.ext (by match a with | ⟨0, _⟩ => rfl)
  rw [e, val_main_v27_at]
  simp only [val_main_v18_at, Ideal.hostDivf_def, Ideal.ofBits_def]
  rfl

/-- The reference's result before the reshape, at `(b, p, q)`. -/
theorem val_main_v36_at (x0 : (⟨S128x640x100, .f32⟩ : BufTy).Contents (Elt Ideal))
    (x1 : (⟨S1x1, .f32⟩ : BufTy).Contents (Elt Ideal)) (b : Fin 128) (p q : Fin 640) :
    val_main_v36 (F := Ideal) x0 x1 (ix3 b p q) = G3 x0 x1 (ix3 b p q) := by
  rw [val_main_v36_apply, val_main_v34_apply, val_main_v32_apply, val_main_v31_at, val_main_v33_at, val_main_v35_at,
    val_main_v18_at]
  simp only [Ideal.addf_def, Ideal.subf_def]
  show _ = centred (distOf x0 x1 b) p q
  unfold centred
  rw [meanOfRowMeans_eq_meanOfAll]

/-- The reference's result before the reshape is the specification's function of the two arguments. -/
theorem val_main_v36_eq (x0 : (⟨S128x640x100, .f32⟩ : BufTy).Contents (Elt Ideal))
    (x1 : (⟨S1x1, .f32⟩ : BufTy).Contents (Elt Ideal)) :
    val_main_v36 (F := Ideal) x0 x1 = G3 x0 x1 := by
  funext j
  obtain ⟨b, p, q, rfl⟩ : ∃ (b : Fin 128) (p q : Fin 640), j = ix3 b p q := ⟨j 0, j 1, j 2, eq_ix3 j⟩
  exact val_main_v36_at x0 x1 b p q

end Cert.RefBdc

end
-- ==== Proof.lean ====
/-
  Both programs compute, for each of the 128 batch entries `X` (a 640 × 100 matrix) and the scale `s = exp t`, the
  doubly centred scaled distance matrix of the rows of `X`:
    `D p q = sqrt (s · max (‖X p‖² + ‖X q‖² − 2 · ⟨X p, X q⟩, 1e-4) + 1e-5)`,
    `out p q = D p q − (mean of row p) − (mean of column q) + (mean of all entries)`,
  laid out as a 128 × 409600 array.

  The kernel takes four batch entries per grid point; it forms the inner products by the matrix unit on the
  narrowed operand and the squared norms by a lane sum of squares, and takes the mean of all entries as the mean of
  the 640 row means. The reference forms the Gram matrix by one batched contraction, reads the squared norms off
  its diagonal, and takes the mean of all entries as their sum over 409600. At the ideal values the change of float
  format is the identity and every sum is exact, so the two agree entry by entry: the squared norm is the diagonal
  entry of the Gram matrix, the two squared norms are added in either order, and the mean of the row means is the
  sum of all entries over 640 · 640, because dividing by a positive real number is multiplying by a nonnegative finite
  constant, which distributes over every sum of extended reals. No finiteness of the inputs is needed.

  The modules: `Spec` (the common function `G3` and the law of the means), `KernelBlock` / `KernelBlockAt` /
  `KernelOutBlock` / `KernelArray` (the kernel's result is the reshape of `G3` of its arguments), `RefDiagonal` /
  `RefTotal` / `RefDist` / `RefValue` (the reference's result before its reshape is `G3` of its arguments).
  The three frames are the generated ones (the reference's is its generated run with the result dropped); the
  idealization rewrote no operation.
-/
import proofs.«161795_j23794118820458_1_alg».proof.Defs
import proofs.«161795_j23794118820458_1_alg».proof.Proof.Gen.Kernel
import proofs.«161795_j23794118820458_1_alg».proof.Proof.Gen.Kernel.Skeleton
import proofs.«161795_j23794118820458_1_alg».proof.Proof.Gen.Kernel.Launch
import proofs.«161795_j23794118820458_1_alg».proof.Proof.Gen.Kernel.Points
import proofs.«161795_j23794118820458_1_alg».proof.Proof.Gen.Kernel.Frame
import proofs.«161795_j23794118820458_1_alg».proof.Proof.Gen.KernelIdeal
import proofs.«161795_j23794118820458_1_alg».proof.Proof.Gen.KernelIdeal.Skeleton
import proofs.«161795_j23794118820458_1_alg».proof.Proof.Gen.KernelIdeal.Launch
import proofs.«161795_j23794118820458_1_alg».proof.Proof.Gen.KernelIdeal.Points
import proofs.«161795_j23794118820458_1_alg».proof.Proof.Gen.KernelIdeal.Frame
import proofs.«161795_j23794118820458_1_alg».proof.Proof.Gen.ReferenceIdeal
import proofs.«161795_j23794118820458_1_alg».proof.Proof.Gen.Pre_finite_inputs
import proofs.«161795_j23794118820458_1_alg».proof.Proof.Gen.ReferenceIdeal.Run
import proofs.«161795_j23794118820458_1_alg».proof.Proof.Gen.ReferenceIdeal.Read
import proofs.«161795_j23794118820458_1_alg».proof.Proof.KernelArray
import proofs.«161795_j23794118820458_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the reshape of `G3` of the arguments: the kernel by its run
    read through its blocks, the reference by its run read operation by operation. -/
theorem algebraic : Cert.algebraic_KernelIdeal_ReferenceIdeal := by
  intro m ρ m' ρ' _ hagree
  refine ⟨_, Cert.KernelBdc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq]
  unfold Cert.ReferenceIdeal.Read.val_main_v37
  rw [Cert.RefBdc.val_main_v36_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
